-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x512 : Shape := ⟨3, ![16, 2048, 512]⟩
abbrev S_ : Shape := ⟨0, ![]⟩

class Facts : Prop where
  bcast_S_S16x2048x512 : S_.BroadcastsInDim S16x2048x512 (![] : Fin 0 → Fin S16x2048x512.rank)
  reducesTo_S16x2048x512_S_d0_1_2 : S16x2048x512.ReducesTo [0, 1, 2] S_
  h_S_ : 0 < S_.numel

variable [Facts]

def fn {F : FTy → Type} [FloatOps F] (main_arg0 : FVec F S16x2048x512 .f32) : IVec S_ 1 :=
  let main_v0 : FVec F S16x2048x512 .f32 := Host.absf main_arg0
  let main_cst : FVec F S_ .f32 := constant S_ .f32 0x7F800000#32
  let main_v1 : FVec F S16x2048x512 .f32 := broadcastInDim S16x2048x512 ![] bcast_S_S16x2048x512 main_cst
  let main_v2 : IVec S16x2048x512 1 := cmpf .olt main_v0 main_v1
  let main_c : IVec S_ 1 := constantI S_ 1 1#1
  let main_v3 : IVec S_ 1 := (fun x v => Host.reduce IntOp.andi x v reducesTo_S16x2048x512_S_d0_1_2 h_S_) main_v2 main_c
  main_v3
-- ==== Kernel.lean ====
abbrev S16x2048x512 : Shape := ⟨3, ![16, 2048, 512]⟩
abbrev S16x512 : Shape := ⟨2, ![16, 512]⟩
abbrev S8x256x512 : Shape := ⟨3, ![8, 256, 512]⟩
abbrev S8x512 : Shape := ⟨2, ![8, 512]⟩

abbrev nBuf : Space → Nat
  | .hbm => 2
  | .vmem => 4
  | .smem => 0
  | _ => 0

abbrev bufTy : (tb : Table) → Fin (tcTables nBuf tb) → BufTy
  | .hbm, ⟨0, _⟩ => ⟨S16x2048x512, .f32⟩
  | .hbm, ⟨1, _⟩ => ⟨S16x512, .f32⟩
  | .local _ .vmem, ⟨0, _⟩ => ⟨S8x256x512, .f32⟩
  | .local _ .vmem, ⟨1, _⟩ => ⟨S8x256x512, .f32⟩
  | .local _ .vmem, ⟨2, _⟩ => ⟨S8x512, .f32⟩
  | .local _ .vmem, ⟨3, _⟩ => ⟨S8x512, .f32⟩
  | _, _ => ⟨S16x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  inb_S8x512_S8x512_0_0 : ∀ a, (![0, 0] : Fin 2 → Nat) a + S8x512.size a ≤ S8x512.size a
  h_S8x512 : 0 < S8x512.numel
  shapeCasts_S8x512_S8x512 : S8x512.ShapeCasts S8x512
  inb_S8x256x512_S8x256x512_0_0_0 : ∀ a, (![0, 0, 0] : Fin 3 → Nat) a + S8x256x512.size a ≤ S8x256x512.size a
  h_S8x256x512 : 0 < S8x256x512.numel
  reduces_S8x256x512_S8x512 : S8x256x512.Reduces [1] S8x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x512.size a ≤ S16x2048x512.size a
  hwx0_0 : ∀ i : grid0.Coords, EltTy.bits .f32 = 32 ∨ (Rect.block (s := S16x2048x512) S8x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512.size a ≤ S16x512.size a
  hwx0_1 : ∀ i : grid0.Coords, EltTy.bits .f32 = 32 ∨ (Rect.block (s := S16x512) S8x512.size (cc0_transform_1 i) (hinb0_1 i)).WholeWords (EltTy.packing .f32)

variable [Facts₀]

abbrev win0_0 : Pipeline.Window sig grid0 :=
  Pipeline.Window.ofSpec (Memref.whole main_arg0) S8x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x2048x512 : Shape := ⟨3, ![16, 2048, 512]⟩
abbrev S16x2048x2048 : Shape := ⟨3, ![16, 2048, 2048]⟩
abbrev S_ : Shape := ⟨0, ![]⟩
abbrev S16x2048 : Shape := ⟨2, ![16, 2048]⟩
abbrev S16x1x2048 : Shape := ⟨3, ![16, 1, 2048]⟩
abbrev S16x512 : Shape := ⟨2, ![16, 512]⟩

abbrev nBuf : Space → Nat
  | .hbm => 25
  | .vmem => 0
  | .smem => 0
  | _ => 0

abbrev bufTy : (tb : Table) → Fin (tcTables nBuf tb) → BufTy
  | .hbm, ⟨0, _⟩ => ⟨S16x2048x512, .f32⟩
  | .hbm, ⟨1, _⟩ => ⟨S16x2048x2048, .f32⟩
  | .hbm, ⟨2, _⟩ => ⟨S_, .f32⟩
  | .hbm, ⟨3, _⟩ => ⟨S16x2048x2048, .f32⟩
  | .hbm, ⟨4, _⟩ => ⟨S16x2048x2048, .f32⟩
  | .hbm, ⟨5, _⟩ => ⟨S_, .f32⟩
  | .hbm, ⟨6, _⟩ => ⟨S16x2048, .f32⟩
  | .hbm, ⟨7, _⟩ => ⟨S_, .f32⟩
  | .hbm, ⟨8, _⟩ => ⟨S16x2048, .f32⟩
  | .hbm, ⟨9, _⟩ => ⟨S16x2048, .f32⟩
  | .hbm, ⟨10, _⟩ => ⟨S16x1x2048, .f32⟩
  | .hbm, ⟨11, _⟩ => ⟨S16x2048x2048, .f32⟩
  | .hbm, ⟨12, _⟩ => ⟨S16x2048x2048, .f32⟩
  | .hbm, ⟨13, _⟩ => ⟨S16x2048x2048, .f32⟩
  | .hbm, ⟨14, _⟩ => ⟨S_, .f32⟩
  | .hbm, ⟨15, _⟩ => ⟨S16x2048, .f32⟩
  | .hbm, ⟨16, _⟩ => ⟨S16x1x2048, .f32⟩
  | .hbm, ⟨17, _⟩ => ⟨S16x2048x2048, .f32⟩
  | .hbm, ⟨18, _⟩ => ⟨S16x2048x2048, .f32⟩
  | .hbm, ⟨19, _⟩ => ⟨S16x2048x512, .f32⟩
  | .hbm, ⟨20, _⟩ => ⟨S_, .f32⟩
  | .hbm, ⟨21, _⟩ => ⟨S16x512, .f32⟩
  | .hbm, ⟨22, _⟩ => ⟨S_, .f32⟩
  | .hbm, ⟨23, _⟩ => ⟨S16x512, .f32⟩
  | .hbm, ⟨24, _⟩ => ⟨S16x512, .f32⟩
  | _, _ => ⟨S16x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_2 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_3 : Ref sig .tc := ⟨.hbm, 20, rfl⟩
abbrev main_v15 : Ref sig .tc := ⟨.hbm, 21, rfl⟩
abbrev main_cst_4 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  bcast_S_S16x2048x2048 : S_.BroadcastsInDim S16x2048x2048 (![] : Fin 0 → Fin S16x2048x2048.rank)
  reducesTo_S16x2048x2048_S16x2048_d1 : S16x2048x2048.ReducesTo [1] S16x2048
  h_S_ : 0 < S_.numel
  bcast_S_S16x2048 : S_.BroadcastsInDim S16x2048 (![] : Fin 0 → Fin S16x2048.rank)
  bcast_S16x2048_S16x1x2048_0_2 : S16x2048.BroadcastsInDim S16x1x2048 (![0, 2] : Fin 2 → Fin S16x1x2048.rank)
  bcast_S16x1x2048_S16x2048x2048_0_1_2 : S16x1x2048.BroadcastsInDim S16x2048x2048 (![0, 1, 2] : Fin 3 → Fin S16x2048x2048.rank)
  reducesTo_S16x2048x512_S16x512_d1 : S16x2048x512.ReducesTo [1] S16x512
  bcast_S_S16x512 : S_.BroadcastsInDim S16x512 (![] : Fin 0 → Fin S16x512.rank)
  dot_S16x2048x512_S16x2048x512_S16x2048x2048_2_2_1_1_0_0_wf : DotDims.WF S16x2048x512 S16x2048x512 S16x2048x2048 [2] [2] [1] [1] [0] [0]
  dot_S16x2048x2048_S16x2048x512_S16x2048x512_2_1_1_2_0_0_wf : DotDims.WF S16x2048x2048 S16x2048x512 S16x2048x512 [2] [1] [1] [2] [0] [0]

variable [Facts₀]

def dot_S16x2048x512_S16x2048x512_S16x2048x2048_2_2_1_1_0_0 : DotDims S16x2048x512 S16x2048x512 S16x2048x2048 where
  lhsContracting := [2]
  rhsContracting := [2]
  lhsNonContracting := [1]
  rhsNonContracting := [1]
  lhsBatch := [0]
  rhsBatch := [0]
  wf := dot_S16x2048x512_S16x2048x512_S16x2048x2048_2_2_1_1_0_0_wf
def dot_S16x2048x2048_S16x2048x512_S16x2048x512_2_1_1_2_0_0 : DotDims S16x2048x2048 S16x2048x512 S16x2048x512 where
  lhsContracting := [2]
  rhsContracting := [1]
  lhsNonContracting := [1]
  rhsNonContracting := [2]
  lhsBatch := [0]
  rhsBatch := [0]
  wf := dot_S16x2048x2048_S16x2048x512_S16x2048x512_2_1_1_2_0_0_wf

class Facts : Prop extends Facts₀ where

variable [Facts]
-- ==== Proof.LibReal.lean ====
/-
  Real numbers among the extended reals.

  Over the extended reals the sum and the product are total, but the laws that move a factor across a sum hold only
  away from the infinities. `IsReal z` says `z` is a real number; real numbers are closed under the sum, the product,
  finite sums and the logistic function, a real factor moves inside a finite sum of real numbers
  (`mul_sum_of_real`), and a scatter that adds real updates into a real array gives a real array.

  How an input is known to be real: a precondition that compares the absolute value of every element of a 32-bit float
  array with plus infinity (the pattern 0x7F800000) says, element by element, that the element is a real number
  (`elem_real`: one element of that comparison being 1; the all-reduce by "and" of the comparison gives every element's).
-/
import Idealize.ShloMosaic.PureOps.Ideal
import Idealize.ShloMosaic.PureOps.Ideal.Laws

noncomputable section

open scoped BigOperators

namespace Cert.LibReal

open Idealize.ShloMosaic

/-- An extended real that is a real number. -/
def IsReal (z : EReal) : Prop := ∃ r : ℝ, z = (r : EReal)

theorem IsReal.coe (r : ℝ) : IsReal (r : EReal) := ⟨r, rfl⟩

theorem IsReal.zero : IsReal 0 := ⟨0, EReal.coe_zero.symm⟩

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

/-- A finite sum of real numbers is a real number. -/
theorem IsReal.sum {ι : Type*} (s : Finset ι) (f : ι → EReal) (h : ∀ i ∈ s, IsReal (f i)) : IsReal (∑ i ∈ s, f i) :=
  Finset.sum_induction f IsReal (fun _ _ => IsReal.add) IsReal.zero h

/-- The logistic function of a real number is a real number. -/
theorem IsReal.logistic {a : EReal} (ha : IsReal a) : IsReal (Ideal.logistic a) := by
  obtain ⟨r, rfl⟩ := ha; exact ⟨_, Ideal.logistic_coe r⟩

/-- A real factor times a finite sum of real numbers is the sum of the products. -/
theorem mul_sum_of_real {ι : Type*} (s : Finset ι) (g : EReal) (a : ι → EReal) (hg : IsReal g)
    (ha : ∀ i ∈ s, IsReal (a i)) : g * ∑ i ∈ s, a i = ∑ i ∈ s, g * a i := by
  classical
  obtain ⟨r, rfl⟩ := hg
  revert ha
  refine Finset.induction_on s ?_ ?_
  · intro _; simp
  · intro i s hi ih ha
    rw [Finset.sum_insert hi, Finset.sum_insert hi, ← ih (fun j hj => ha j (Finset.mem_insert_of_mem hj))]
    obtain ⟨x, hx⟩ := ha i (Finset.mem_insert_self i s)
    obtain ⟨y, hy⟩ := IsReal.sum s a (fun j hj => ha j (Finset.mem_insert_of_mem hj))
    rw [hx, hy, ← EReal.coe_add, ← EReal.coe_mul, ← EReal.coe_mul, ← EReal.coe_mul, ← EReal.coe_add, mul_add]

/-- Adding real updates into a real array leaves every element real: the element plus a finite sum of updates. -/
theorem scatterAdd_real {s si su : Shape} {w : Nat} (d : ScatterDims s si su) (x : FVec Ideal s .f32) (idx : IVec si w)
    (upd : FVec Ideal su .f32) (hx : ∀ i, IsReal (x i)) (hu : ∀ j, IsReal (upd j)) :
    ∀ i, IsReal (Host.scatterAdd d x idx upd i) := by
  intro i
  show IsReal (Ideal.hostScatterAdd d x idx upd i)
  unfold Ideal.hostScatterAdd
  exact IsReal.add (hx i) (IsReal.sum _ _ fun j _ => hu j)

/-- The rank-zero shape has one index. -/
instance scalarIdx_subsingleton : Subsingleton (⟨0, ![]⟩ : Shape).Idx := ⟨fun a b => funext fun d => d.elim0⟩

/-- An extended real whose absolute value, the larger of it and its negation, is below plus infinity is a real number. -/
theorem isReal_of_abs_lt_top (x : EReal) (h : max x (-x) < ⊤) : IsReal x := by
  induction x using EReal.rec with
  | bot => simp at h
  | coe r => exact ⟨r, rfl⟩
  | top => simp at h

/-- The pattern 0x7F800000 of the 32-bit format is plus infinity. -/
theorem ofBits_inf : Ideal.ofBits .f32 0x7F800000#32 = ⊤ := by simp [Ideal.ofBits, Ideal.ieee]

/-- One element of the comparison of the absolute values against a splat of plus infinity being 1 says the
    element is a real number. -/
theorem elem_real {s : Shape} (hb : (⟨0, ![]⟩ : Shape).BroadcastsInDim s (![] : Fin 0 → Fin s.rank))
    (a : FVec Ideal s .f32) (i : s.Idx)
    (h : cmpf .olt (Host.absf a) (broadcastInDim s ![] hb (constant (⟨0, ![]⟩ : Shape) .f32 0x7F800000#32)) i = 1#1) :
    IsReal (a i) := by
  have h' : Ideal.cmp .olt (max (a i) (-(a i))) (Ideal.ofBits .f32 0x7F800000#32) = 1#1 := h
  rw [ofBits_inf] at h'
  unfold Ideal.cmp at h'
  refine isReal_of_abs_lt_top (a i) ?_
  by_contra hn
  simp [hn] at h'

end Cert.LibReal

end
-- ==== Proof.Words.lean ====
/-
  The four float words the two programs spell besides zero, as the extended reals they denote: minus infinity (the
  starting value of the column maximum), 2048 (the reference's divisor), 1/2048 (the kernel's factor: a power of two,
  so the word denotes it exactly), and the reference's score scale, of which only that it is a real number matters.
-/
import Idealize.ShloMosaic.PureOps.Ideal
import proofs.«135067_j39204461478201_1_alg».proof.Proof.LibReal

noncomputable section

namespace Cert.Words

open Idealize.ShloMosaic Cert.LibReal

/-- The word 0xFF800000 is minus infinity. -/
theorem ofBits_neg_inf : Ideal.ofBits .f32 0xFF800000#32 = ⊥ := by
  simp [Ideal.ofBits, Ideal.ieee]

/-- The word 0x45000000 is 2048 = 2^11. -/
theorem ofBits_2048 : Ideal.ofBits .f32 0x45000000#32 = ((2048 : ℝ) : EReal) := by
  simp [Ideal.ofBits, Ideal.ieee, -EReal.coe_mul]; norm_num

/-- The word 0x3A000000 is 2^(-11) = 1/2048, exactly. -/
theorem ofBits_inv_2048 : Ideal.ofBits .f32 0x3A000000#32 = ((1 / 2048 : ℝ) : EReal) := by
  simp [Ideal.ofBits, Ideal.ieee, -EReal.coe_mul]; norm_num

/-- The score scale's word 0x3D3504F3 denotes a real number (a normal pattern: its exponent field is not all ones). -/
theorem scale_real : IsReal (Ideal.ofBits .f32 0x3D3504F3#32) := by
  show ∃ r : ℝ, Ideal.ieee 8 23 (0x3D3504F3#32 : BitVec 32) = (r : EReal)
  unfold Ideal.ieee
  dsimp only
  rw [if_neg (by decide), if_neg (by decide)]
  exact ⟨_, rfl⟩

end Cert.Words

end
-- ==== Proof.FiniteEntries.lean ====
/-
  What the precondition says, entry by entry: the comparison |x| < +inf holds at every index of the input (the
  precondition is the conjunction of all those comparisons), and an extended real whose absolute value is below plus
  infinity is a real number.
-/
import proofs.«135067_j39204461478201_1_alg».proof.Pre_finite_inputs
import proofs.«135067_j39204461478201_1_alg».proof.Proof.LibReal
import Idealize.ShloMosaic.Lib.ReduceAll
import Idealize.ShloMosaic.Lib.ValueIdx

noncomputable section

namespace Cert.FiniteEntries

open Idealize.ShloMosaic Cert.LibReal

/-- Under the precondition every entry of the input is a real number. -/
theorem entries_real [Cert.Pre_finite_inputs.Facts] (x : FVec Ideal Cert.Pre_finite_inputs.S16x2048x512 .f32)
    (h : Cert.Pre_finite_inputs.fn (F := Ideal) x = fun _ => 1#1) (i : Cert.Pre_finite_inputs.S16x2048x512.Idx) :
    IsReal (x i) := by
  have h0 := congrFun h ValueIdx.ix0
  dsimp only [Cert.Pre_finite_inputs.fn] at h0
  exact elem_real _ x i (Host.reduce_andi_all _ _ _ _ _ h0 i)

end Cert.FiniteEntries

end
-- ==== Proof.LibRealOps.lean ====
/-
  More closure properties of the real numbers among the extended reals.

  A real number is an extended real other than the two infinities. Besides the sum, the product and finite sums, the
  real numbers are closed under the difference, the negation, the larger and the smaller of two, the exponential, the
  quotient by a nonzero real, and the reciprocal square root of a positive real: on real arguments each of these
  operations on the extended reals is the real operation, coerced.
-/
import proofs.«135067_j39204461478201_1_alg».proof.Proof.LibReal

noncomputable section

open scoped BigOperators

namespace Cert.LibRealOps

open Idealize.ShloMosaic Cert.LibReal

/-- 1 is a real number. -/
theorem IsReal.one : IsReal 1 := ⟨1, EReal.coe_one.symm⟩

/-- A real number is not plus infinity. -/
theorem IsReal.ne_top {a : EReal} (ha : IsReal a) : a ≠ ⊤ := by
  obtain ⟨r, rfl⟩ := ha; exact EReal.coe_ne_top r

/-- A real number is not minus infinity. -/
theorem IsReal.ne_bot {a : EReal} (ha : IsReal a) : a ≠ ⊥ := by
  obtain ⟨r, rfl⟩ := ha; exact EReal.coe_ne_bot r

/-- An extended real that is neither infinity is a real number. -/
theorem IsReal.of_ne {a : EReal} (ht : a ≠ ⊤) (hb : a ≠ ⊥) : IsReal a := by
  induction a using EReal.rec with
  | bot => exact absurd rfl hb
  | coe r => exact ⟨r, rfl⟩
  | top => exact absurd rfl ht

/-- The negation of a real number is a real number. -/
theorem IsReal.neg {a : EReal} (ha : IsReal a) : IsReal (-a) := by
  obtain ⟨r, rfl⟩ := ha; exact ⟨-r, (EReal.coe_neg r).symm⟩

/-- The difference of two real numbers is a real number. -/
theorem IsReal.sub {a b : EReal} (ha : IsReal a) (hb : IsReal b) : IsReal (a - b) := by
  obtain ⟨r, rfl⟩ := ha; obtain ⟨s, rfl⟩ := hb; exact ⟨r - s, (EReal.coe_sub r s).symm⟩

/-- The larger of two real numbers is a real number. -/
theorem IsReal.max {a b : EReal} (ha : IsReal a) (hb : IsReal b) : IsReal (max a b) := by
  obtain ⟨r, rfl⟩ := ha; obtain ⟨s, rfl⟩ := hb
  exact ⟨Max.max r s, (EReal.coe_strictMono.monotone.map_max).symm⟩

/-- The smaller of two real numbers is a real number. -/
theorem IsReal.min {a b : EReal} (ha : IsReal a) (hb : IsReal b) : IsReal (min a b) := by
  obtain ⟨r, rfl⟩ := ha; obtain ⟨s, rfl⟩ := hb
  exact ⟨Min.min r s, (EReal.coe_strictMono.monotone.map_min).symm⟩

/-- The exponential of a real number is a real number. -/
theorem IsReal.exp {a : EReal} (ha : IsReal a) : IsReal (Ideal.exp a) := by
  obtain ⟨r, rfl⟩ := ha; exact ⟨Real.exp r, Ideal.exp_coe r⟩

/-- The quotient of a real number by a nonzero real is a real number. -/
theorem IsReal.div_coe {a : EReal} (ha : IsReal a) {N : ℝ} (hN : N ≠ 0) : IsReal (Ideal.div a (N : EReal)) := by
  obtain ⟨r, rfl⟩ := ha
  exact ⟨r * (1 / N), by rw [Ideal.div_coe hN, EReal.coe_mul]⟩

/-- The quotient of a real number by a nonzero real number is a real number. -/
theorem IsReal.div {a b : EReal} (ha : IsReal a) (hb : IsReal b) (hb0 : b ≠ 0) : IsReal (Ideal.div a b) := by
  obtain ⟨s, rfl⟩ := hb
  exact IsReal.div_coe ha (fun h => hb0 (by rw [h, EReal.coe_zero]))

/-- The reciprocal square root of a positive real is a real number. -/
theorem IsReal.rsqrt_coe {r : ℝ} (hr : 0 < r) : IsReal (Ideal.rsqrt (r : EReal)) :=
  ⟨(Real.sqrt r)⁻¹, by rw [Ideal.rsqrt_coe, if_neg (not_lt.mpr hr.le), if_neg hr.ne']⟩

/-- A sum of real numbers over a whole finite index type is a real number. -/
theorem IsReal.sum_univ {ι : Type*} [Fintype ι] (f : ι → EReal) (h : ∀ i, IsReal (f i)) : IsReal (∑ i, f i) :=
  IsReal.sum Finset.univ f (fun i _ => h i)

end Cert.LibRealOps

end
-- ==== Proof.LibSoftmaxShift.lean ====
/-
  Softmax with and without the row maximum subtracted, on the extended reals.

  A reference computes softmax as exp(x - m) / Σ exp(x_k - m) with m the row maximum (for range reasons that vanish
  with exact arithmetic); a kernel may compute exp(x) / Σ exp(x_k) directly. For REAL logits and a real shift m the two
  agree, because exp(x - m) = exp(x) · exp(-m) and the positive real factor exp(-m) cancels. At an infinite logit the
  two expressions differ, so the hypothesis that every logit is a real number is needed.
-/
import Idealize.ShloMosaic.PureOps.Ideal

noncomputable section

namespace Cert.LibSoftmaxShift

open Idealize.ShloMosaic

/-- The coercion of a finite real sum is the sum of the coercions. -/
theorem coe_sum {ι : Type*} [Fintype ι] (f : ι → ℝ) : ((∑ k, f k : ℝ) : EReal) = ∑ k, (f k : EReal) := by
  classical
  refine Finset.induction_on (Finset.univ : Finset ι) (by simp) ?_
  intro a s ha ih
  rw [Finset.sum_insert ha, Finset.sum_insert ha, EReal.coe_add, ih]

/-- The exponential of a real number minus a real number, computed on the extended reals, is the real exponential of
    the difference. -/
theorem exp_sub_coe (a m : ℝ) : Ideal.exp ((a : EReal) - (m : EReal)) = ((Real.exp (a - m) : ℝ) : EReal) := by
  rw [← EReal.coe_sub]; rfl

/-- The sum of the exponentials of finitely many reals, over a nonempty index type, is a positive real. -/
theorem sum_exp_pos {ι : Type*} [Fintype ι] [Nonempty ι] (x : ι → ℝ) : 0 < ∑ k, Real.exp (x k) :=
  Finset.sum_pos (fun k _ => Real.exp_pos (x k)) Finset.univ_nonempty

/-- A quotient of the exponential of a real by a sum of exponentials of reals is the real quotient. -/
theorem div_exp_sum {ι : Type*} [Fintype ι] [Nonempty ι] (x : ι → ℝ) (j : ι) :
    Ideal.div (Ideal.exp (x j : EReal)) (∑ k, Ideal.exp (x k : EReal))
      = ((Real.exp (x j) / ∑ k, Real.exp (x k) : ℝ) : EReal) := by
  have hs : (∑ k, Ideal.exp (x k : EReal)) = ((∑ k, Real.exp (x k) : ℝ) : EReal) := by
    rw [coe_sum]; rfl
  rw [hs, Ideal.div_coe (ne_of_gt (sum_exp_pos x))]
  show ((Real.exp (x j) : ℝ) : EReal) * _ = _
  rw [← EReal.coe_mul, mul_one_div]

/-- SHIFT INVARIANCE. For real logits `x` over a nonempty finite index type and a real shift `m`, the softmax
    computed from the shifted logits is the softmax computed from the logits themselves. -/
theorem softmax_shift {ι : Type*} [Fintype ι] [Nonempty ι] (x : ι → ℝ) (m : ℝ) (j : ι) :
    Ideal.div (Ideal.exp ((x j : EReal) - (m : EReal))) (∑ k, Ideal.exp ((x k : EReal) - (m : EReal)))
      = Ideal.div (Ideal.exp (x j : EReal)) (∑ k, Ideal.exp (x k : EReal)) := by
  have h1 : ∀ k, Ideal.exp ((x k : EReal) - (m : EReal)) = Ideal.exp (((x k - m : ℝ)) : EReal) := fun k => by
    rw [← EReal.coe_sub]
  simp only [h1]
  rw [div_exp_sum (fun k => x k - m) j, div_exp_sum x j]
  congr 1
  simp only [Real.exp_sub]
  rw [← Finset.sum_div, div_div_div_cancel_right₀ (ne_of_gt (Real.exp_pos m))]

/-- The same for extended reals known to be real: every logit `z k` and the shift `μ` a real number. -/
theorem softmax_shift_of_real {ι : Type*} [Fintype ι] [Nonempty ι] (z : ι → EReal) (hz : ∀ k, ∃ r : ℝ, z k = r)
    (μ : EReal) (hμ : ∃ r : ℝ, μ = r) (j : ι) :
    Ideal.div (Ideal.exp (z j - μ)) (∑ k, Ideal.exp (z k - μ)) = Ideal.div (Ideal.exp (z j)) (∑ k, Ideal.exp (z k)) := by
  choose x hx using hz
  obtain ⟨m, rfl⟩ := hμ
  simp only [hx]
  exact softmax_shift x m j

/-- The maximum of finitely many reals over a nonempty index type — as the supremum on the extended reals, which is
    what a fold of `max` from minus infinity computes — is one of them, hence a real number. -/
theorem sup_real {ι : Type*} [Fintype ι] [Nonempty ι] (z : ι → EReal) (hz : ∀ k, ∃ r : ℝ, z k = r) :
    ∃ r : ℝ, Finset.univ.sup z = r := by
  obtain ⟨i, _, hi⟩ := Finset.exists_mem_eq_sup Finset.univ Finset.univ_nonempty z
  obtain ⟨r, hr⟩ := hz i
  exact ⟨r, hi.trans hr⟩

/-- The softmax of real logits is a real number in every entry. -/
theorem softmax_real {ι : Type*} [Fintype ι] [Nonempty ι] (z : ι → EReal) (hz : ∀ k, ∃ r : ℝ, z k = r) (j : ι) :
    ∃ r : ℝ, Ideal.div (Ideal.exp (z j)) (∑ k, Ideal.exp (z k)) = r := by
  choose x hx using hz
  simp only [hx]
  exact ⟨_, div_exp_sum x j⟩

end Cert.LibSoftmaxShift

end
-- ==== Proof.LibColumnWeights.lean ====
/-
  Weights normalised by COLUMN: a general law on the extended reals, no program in sight. (A softmax taken over the
  query axis of attention scores is such a normalisation; the mean over queries of the attention output then no longer
  depends on the scores at all.)

  Take positive real numbers e(q, k) over two finite index types, the first nonempty, and normalise each COLUMN k:
  w(q, k) = e(q, k) / Σ_q' e(q', k). Every column of w sums to one over q. Hence, for real numbers x(k),

      Σ_q Σ_k w(q, k) · x(k)  =  Σ_k x(k) · (Σ_q w(q, k))  =  Σ_k x(k).

  On the extended reals the step that moves x(k) out of the sum over q is distributivity, which fails at the
  infinities; so the statement asks every e(q, k) to be a positive real and every x(k) to be a real, and the proof
  carries the whole computation over to the real numbers, where it is the exchange of the two sums and
  (Σ_q e(q, k)) / (Σ_q e(q, k)) = 1.

  Also here: the exponential of a real number is a positive real, and the maximum of finitely many reals, taken as a
  fold of max from minus infinity, is a real number.
-/
import Idealize.ShloMosaic.PureOps.Ideal
import proofs.«135067_j39204461478201_1_alg».proof.Proof.LibReal
import proofs.«135067_j39204461478201_1_alg».proof.Proof.LibSoftmaxShift

noncomputable section

open scoped BigOperators

namespace Cert.LibColumnWeights

open Idealize.ShloMosaic Cert.LibReal Cert.LibSoftmaxShift

/-- A double sum of coerced reals is the coercion of the real double sum. -/
theorem coe_sum_sum {Q K : Type*} [Fintype Q] [Fintype K] (g : Q → K → ℝ) :
    ∑ q, ∑ k, ((g q k : ℝ) : EReal) = ((∑ q, ∑ k, g q k : ℝ) : EReal) := by
  rw [coe_sum]
  exact Finset.sum_congr rfl fun q _ => (coe_sum (g q)).symm

/-- Over the reals: weights normalised along q sum to one along q, so the weighted double sum is the plain sum. -/
theorem real_collapse {Q K : Type*} [Fintype Q] [Fintype K] (e : Q → K → ℝ) (x : K → ℝ)
    (hS : ∀ k, 0 < ∑ q, e q k) :
    ∑ q, ∑ k, e q k / (∑ q', e q' k) * x k = ∑ k, x k := by
  rw [Finset.sum_comm]
  refine Finset.sum_congr rfl fun k _ => ?_
  rw [← Finset.sum_mul, ← Finset.sum_div, div_self (ne_of_gt (hS k)), one_mul]

/-- THE LAW on the extended reals: positive real e(q, k), real x(k), q ranging over a nonempty finite type. -/
theorem collapse {Q K : Type*} [Fintype Q] [Fintype K] [Nonempty Q] (e : Q → K → EReal) (x : K → EReal)
    (he : ∀ q k, ∃ r : ℝ, 0 < r ∧ e q k = (r : EReal)) (hx : ∀ k, IsReal (x k)) :
    ∑ q, ∑ k, Ideal.div (e q k) (∑ q', e q' k) * x k = ∑ k, x k := by
  choose er her using he
  choose xr hxr using hx
  have hpos : ∀ k, 0 < ∑ q, er q k := fun k =>
    Finset.sum_pos (fun q _ => (her q k).1) Finset.univ_nonempty
  have hS : ∀ k, (∑ q', e q' k) = ((∑ q', er q' k : ℝ) : EReal) := fun k => by
    rw [coe_sum]; exact Finset.sum_congr rfl fun q _ => (her q k).2
  have hterm : ∀ q k, Ideal.div (e q k) (∑ q', e q' k) * x k
      = ((er q k / (∑ q', er q' k) * xr k : ℝ) : EReal) := fun q k => by
    rw [hS k, Ideal.div_coe (ne_of_gt (hpos k)), (her q k).2, hxr k, ← EReal.coe_mul, ← EReal.coe_mul, mul_one_div]
  have hl : ∑ q, ∑ k, Ideal.div (e q k) (∑ q', e q' k) * x k
      = ∑ q, ∑ k, ((er q k / (∑ q', er q' k) * xr k : ℝ) : EReal) :=
    Finset.sum_congr rfl fun q _ => Finset.sum_congr rfl fun k _ => hterm q k
  have hr : ∑ k, x k = ((∑ k, xr k : ℝ) : EReal) := by
    rw [coe_sum]; exact Finset.sum_congr rfl fun k _ => hxr k
  rw [hl, hr, coe_sum_sum, real_collapse er xr hpos]

/-- The exponential of a real number is a positive real. -/
theorem exp_pos_real {a : EReal} (ha : IsReal a) : ∃ r : ℝ, 0 < r ∧ Ideal.exp a = (r : EReal) := by
  obtain ⟨r, rfl⟩ := ha
  exact ⟨Real.exp r, Real.exp_pos r, rfl⟩

/-- The fold of max from minus infinity over finitely many reals, at least one, is a real number: it is their
    supremum, which one of them attains. -/
theorem fold_max_real {ι : Type*} [Fintype ι] [Nonempty ι] (z : ι → EReal) (hz : ∀ k, IsReal (z k)) :
    IsReal ((Finset.univ : Finset ι).fold max (⊥ : EReal) z) :=
  sup_real z hz

end Cert.LibColumnWeights

end
-- ==== Proof.RefStages.lean ====
/-
  The reference read at an index, for an input whose entries are real numbers.

  The reference forms the scores s(b, q, k) = scale · Σ_h x(b, q, h) · x(b, k, h), subtracts from each the maximum of
  its COLUMN (over q, for fixed b and k), exponentiates, and divides by the column's sum: weights w(b, q, k), each
  column summing to one over q. Its result is (Σ_q Σ_k w(b, q, k) · x(b, k, h)) / 2048.

  For real x every score is real, each column maximum is real (the maximum of 2048 reals), every exponential is a
  positive real, so the law of weights normalised by column applies: the double sum is Σ_k x(b, k, h). The
  division by 2048 is the product with 1/2048 on every extended real.
-/
import proofs.«135067_j39204461478201_1_alg».proof.Defs
import proofs.«135067_j39204461478201_1_alg».proof.Proof.Gen.ReferenceIdeal.Read
import proofs.«135067_j39204461478201_1_alg».proof.Proof.LibReal
import proofs.«135067_j39204461478201_1_alg».proof.Proof.LibRealOps
import proofs.«135067_j39204461478201_1_alg».proof.Proof.Words
import proofs.«135067_j39204461478201_1_alg».proof.Proof.LibColumnWeights
import Idealize.ShloMosaic.PureOps.Ideal.Laws

noncomputable section

open scoped BigOperators

namespace Cert.ReferenceIdeal.Stages

open Cert.ReferenceIdeal Cert.ReferenceIdeal.Gen Cert.ReferenceIdeal.Read Idealize.ShloMosaic Cert.LibReal Cert.LibRealOps

variable (x0 : (⟨S16x2048x512, .f32⟩ : BufTy).Contents (Elt Ideal))

/-- Every scaled score is a real number: a finite sum of products of reals, times the real scale. -/
theorem score_real (hx : ∀ j, IsReal (x0 j)) (j : S16x2048x2048.Idx) : IsReal (val_main_v2 (F := Ideal) x0 j) := by
  rw [val_main_v2_apply, val_main_v0_apply, val_main_v1_apply, val_main_cst_apply]
  show IsReal ((∑ k : Fin 512, x0 (lidx_main_v0 j k) * x0 (ridx_main_v0 j k)) * Ideal.ofBits .f32 0x3D3504F3#32)
  exact IsReal.mul (IsReal.sum _ _ fun k _ => IsReal.mul (hx _) (hx _)) Words.scale_real

/-- Every column maximum is a real number: the fold of max from minus infinity over the column's 2048 real scores. -/
theorem colmax_real (hx : ∀ j, IsReal (x0 j)) (j : S16x2048.Idx) : IsReal (val_main_v3 (F := Ideal) x0 j) := by
  unfold val_main_v3
  rw [Host.reduce_eq_fold_single FloatOps.maximumf _ _ reducesTo_S16x2048x2048_S16x2048_d1 (by decide) h_S_]
  rw [val_main_cst_0_apply]
  show IsReal ((Finset.univ : Finset (Fin 2048)).fold max (Ideal.ofBits .f32 0xFF800000#32) _)
  rw [Words.ofBits_neg_inf]
  exact LibColumnWeights.fold_max_real _ (fun k => score_real x0 hx _)

/-- The maximum subtracted from a score is its column's, broadcast back: a real number. -/
theorem shift_real (hx : ∀ j, IsReal (x0 j)) (j : S16x2048x2048.Idx) : IsReal (val_main_v7 (F := Ideal) x0 j) := by
  rw [val_main_v7_apply, val_main_v6_apply, val_main_v5_apply, val_main_v4_apply, val_main_cst_1_apply]
  show IsReal (max (Ideal.ofBits .f32 0xFF800000#32) (val_main_v3 (F := Ideal) x0 _))
  rw [Words.ofBits_neg_inf, max_bot_left]
  exact colmax_real x0 hx _

/-- Every exponential is a positive real. -/
theorem exp_pos (hx : ∀ j, IsReal (x0 j)) (j : S16x2048x2048.Idx) :
    ∃ r : ℝ, 0 < r ∧ val_main_v9 (F := Ideal) x0 j = (r : EReal) := by
  rw [val_main_v9_apply, val_main_v8_apply]
  show ∃ r : ℝ, 0 < r ∧ Ideal.exp (val_main_v2 (F := Ideal) x0 j - val_main_v7 (F := Ideal) x0 j) = (r : EReal)
  exact LibColumnWeights.exp_pos_real (IsReal.sub (score_real x0 hx j) (shift_real x0 hx j))

/-- THE REFERENCE AT AN INDEX (b, h): the sum of x(b, t, h) over the 2048 rows t, times 1/2048. -/
theorem result_apply (hx : ∀ j, IsReal (x0 j)) (i : S16x512.Idx) :
    val_main_v17 (F := Ideal) x0 i = (∑ t : Fin 2048, x0 (idx_main_v15 i t)) * ((1 / 2048 : ℝ) : EReal) := by
  rw [val_main_v17_apply, val_main_v16_apply, val_main_cst_4_apply, val_main_v15_apply, val_main_cst_3_apply]
  show Ideal.div (Ideal.ofBits .f32 0x00000000#32 + ∑ q : Fin 2048, val_main_v14 (F := Ideal) x0 (idx_main_v15 i q))
      (Ideal.ofBits .f32 0x45000000#32) = _
  rw [Words.ofBits_2048, Ideal.ofBits_zero_f32, zero_add, Ideal.div_coe (by norm_num : (2048 : ℝ) ≠ 0)]
  congr 1
  -- row q of the weighted sum, with the weight written as an exponential over its column's sum
  have hrow : ∀ q : Fin 2048, val_main_v14 (F := Ideal) x0 (idx_main_v15 i q)
      = ∑ k : Fin 2048, Ideal.div (val_main_v9 (F := Ideal) x0 (lidx_main_v14 (idx_main_v15 i q) k))
          (∑ q' : Fin 2048, val_main_v9 (F := Ideal) x0 (lidx_main_v14 (idx_main_v15 i q') k))
            * x0 (idx_main_v15 i k) := by
    intro q
    rw [val_main_v14_apply]
    refine Finset.sum_congr rfl fun k _ => ?_
    rw [val_main_v13_apply, val_main_v12_apply, val_main_v11_apply, val_main_v10_apply, val_main_cst_2_apply]
    have e2 : ridx_main_v14 (idx_main_v15 i q) k = idx_main_v15 i k :=
      funext fun a => Fin.ext (by match a with | ⟨0, _⟩ => rfl | ⟨1, _⟩ => rfl | ⟨2, _⟩ => rfl)
    show Ideal.div _ (Ideal.ofBits .f32 0x00000000#32 + _) * _ = _
    -- the column of entry (b, q, k) is the entries (b, q', k): the composed indices agree coordinate by coordinate
    rw [Ideal.ofBits_zero_f32, zero_add, e2]
  rw [Finset.sum_congr rfl fun q _ => hrow q]
  exact LibColumnWeights.collapse (fun q k => val_main_v9 (F := Ideal) x0 (lidx_main_v14 (idx_main_v15 i q) k))
    (fun k => x0 (idx_main_v15 i k)) (fun q k => exp_pos x0 hx _) (fun k => hx _)

end Cert.ReferenceIdeal.Stages

end
-- ==== Proof.TileSum.lean ====
/- The kernel's output array, read at an index: each entry is the sum of the 2048 rows of the
   argument array that share its first and last coordinates, times the f32 word 0x3A000000
   (2⁻¹¹). The 16 grid points come in two runs of 8; a run adds, tile by tile, the row-sums of
   eight consecutive 256-row tiles into a block that starts at zero, and scales at its last point. -/
import proofs.«135067_j39204461478201_1_alg».proof.Proof.Gen.KernelIdeal.Value
import Idealize.ShloMosaic.PureOps.Ideal.Laws
import Idealize.ShloMosaic.Lib.ValueIdx
import Idealize.ShloMosaic.Lib.Pipeline.Value

noncomputable section

namespace Cert.KernelIdeal.TileSum

open Cert.KernelIdeal Cert.KernelIdeal.Gen Idealize.ShloMosaic Idealize.ShloMosaic.TcCoe Idealize.SL.Sem

/-- The input index (b, t, h) that output index (b, h) reads at row t. -/
abbrev rowAt (i : S16x512.Idx) (t : Fin 2048) : S16x2048x512.Idx := fun a => match a with
  | ⟨0, _⟩ => ⟨(i 0).val, (i 0).isLt⟩
  | ⟨1, _⟩ => ⟨t.val, t.isLt⟩
  | ⟨2, _⟩ => ⟨(i 1).val, (i 1).isLt⟩

/-! ## The three payloads at an index -/

/-- The zero block is zero everywhere. -/
theorem pay1_apply (j : S8x512.Idx) : (k0_pay1 (F := Ideal)) j = 0 :=
  (show (k0_pay1 (F := Ideal)) j = Ideal.ofBits .f32 0x00000000#32 from rfl).trans Ideal.ofBits_zero_f32

/-- Adding a tile: the accumulator's entry plus the sum of the tile's 256 rows at that entry. -/
theorem pay2_apply (acc : Vec Ideal S8x512 .f32) (blk : Vec Ideal S8x256x512 .f32) (j : S8x512.Idx) :
    k0_pay2 acc blk j = acc j + ∑ r : Fin 256, blk (reduces_S8x256x512_S8x512.lift j r) := by
  unfold k0_pay2
  rw [shapeCast_self]
  show acc j + multiReduction (F := Ideal) .add [1] S8x512 blk 0x00000000#32 reduces_S8x256x512_S8x512 (.inl rfl) rfl j = _
  exact congrArg (acc j + ·) (Ideal.multiReduction_add_single blk 0x00000000#32 reduces_S8x256x512_S8x512 (.inl rfl) rfl j)

/-- The final scaling multiplies each entry by the constant. -/
theorem pay3_apply (v : Vec Ideal S8x512 .f32) (j : S8x512.Idx) :
    k0_pay3 v j = v j * Ideal.ofBits .f32 0x3A000000#32 := by
  unfold k0_pay3
  rw [shapeCast_self]
  rfl

/-! ## A tile of the argument array at an index -/

/-- The block index of the input window at grid point `t`: batch block `t / 8`, row tile `t % 8`, the whole last axis. -/
theorem tile_index : ∀ t : Fin cfg0.N, win0_0.index t (0 : Fin 3) = t.val / 8
    ∧ win0_0.index t (1 : Fin 3) = t.val % 8 ∧ win0_0.index t (2 : Fin 3) = 0 :=
  (by decide +kernel : ∀ t : Fin grid0.N, _)

/-- Entry `y` of the tile at grid point `t` is the argument array's entry whose coordinates are the tile's
    offsets plus `y`'s: batch `8·(t / 8) + y₀`, row `256·(t % 8) + y₁`, lane `y₂`. -/
theorem tile_apply (m : (ℓ : Loc nD τ sig) → Buf (Elt Ideal) ℓ) (c : Dev nD) (t : Fin cfg0.N)
    (y : S8x256x512.Idx) (I : S16x2048x512.Idx)
    (h0 : (I 0).val = 8 * (t.val / 8) + (y 0).val) (h1 : (I 1).val = 256 * (t.val % 8) + (y 1).val)
    (h2 : (I 2).val = (y 2).val) :
    iblk m c 0 t y = m ((c : Thread nD τ).loc main_arg0) I := by
  obtain ⟨e0, e1, e2⟩ := tile_index t
  show m ((c : Thread nD τ).loc main_arg0) (((cfg0.win 0).blk t).view.emb y) = m ((c : Thread nD τ).loc main_arg0) I
  refine congrArg (m ((c : Thread nD τ).loc main_arg0)) ?_
  funext a; apply Fin.ext
  match a with
  | ⟨0, _⟩ => show win0_0.index t (0 : Fin 3) * 8 + 1 * (y 0).val = (I 0).val; omega
  | ⟨1, _⟩ => show win0_0.index t (1 : Fin 3) * 256 + 1 * (y 1).val = (I 1).val; omega
  | ⟨2, _⟩ => show win0_0.index t (2 : Fin 3) * 512 + 1 * (y 2).val = (I 2).val; omega

/-! ## A run of eight grid points: the fold of the tiles' row-sums -/

/-- The sum of the 256 rows of the tile at grid point `n`, at block entry `j` (zero past the grid, where it is never read). -/
def tileSum (m : (ℓ : Loc nD τ sig) → Buf (Elt Ideal) ℓ) (c : Dev nD) (n : ℕ) (j : S8x512.Idx) : EReal :=
  if h : n < cfg0.N then ∑ r : Fin 256, (iblk m c 0 ⟨n, h⟩ (reduces_S8x256x512_S8x512.lift j r) : EReal) else 0

section Run

variable (m : (ℓ : Loc nD τ sig) → Buf (Elt Ideal) ℓ) (c : Dev nD)

/-- A run's first point leaves zero plus its tile's row-sum. -/
theorem reset1_apply (n : ℕ) (h : n < cfg0.N) (j : S8x512.Idx) :
    Value.reset1 m c n h j = 0 + tileSum m c n j := by
  unfold Value.reset1 tileSum
  rw [pay2_apply, pay1_apply, dif_pos h]

/-- A middle point of a run adds its tile's row-sum. -/
theorem step1_mid (n : ℕ) (h : n < cfg0.N) (acc : Vec Ideal S8x512 .f32) (j : S8x512.Idx)
    (h0 : ¬n % 8 = 0) (h7 : ¬n % 8 = 7) : Value.step1 m c n h acc j = acc j + tileSum m c n j := by
  unfold Value.step1 tileSum
  rw [if_pos ⟨h0, h7⟩, pay2_apply, dif_pos h]

/-- A run's last point adds its tile's row-sum and then scales. -/
theorem step1_last (n : ℕ) (h : n < cfg0.N) (acc : Vec Ideal S8x512 .f32) (j : S8x512.Idx)
    (h7 : n % 8 = 7) : Value.step1 m c n h acc j = (acc j + tileSum m c n j) * Ideal.ofBits .f32 0x3A000000#32 := by
  unfold Value.step1 tileSum
  rw [if_neg (fun hh => hh.2 h7), if_pos ⟨by omega, h7⟩, pay3_apply, pay2_apply, dif_pos h]

/-- The whole run from point `b` (a multiple of 8): the eight tiles' row-sums added up, then scaled. -/
theorem fold_apply (b : ℕ) (hb : b % 8 = 0) (h : b + 7 < cfg0.N) (j : S8x512.Idx) :
    Pipeline.accAt (Value.reset1 m c) (Value.step1 m c) b 7 h j
      = (∑ s ∈ Finset.range 8, tileSum m c (b + s) j) * Ideal.ofBits .f32 0x3A000000#32 := by
  show Pipeline.accAt (Value.reset1 m c) (Value.step1 m c) b (6 + 1) h j = _
  rw [Pipeline.accAt_succ, step1_last m c _ _ _ _ (by omega)]
  rw [Pipeline.accAt_add_apply (ι := S8x512.Idx) (β := EReal) (Value.reset1 m c) (Value.step1 m c) (fun _ => 0) (tileSum m c) b 6
    (fun h i => reset1_apply m c b h i)
    (fun n h acc i h1 h2 => step1_mid m c n h acc i (by omega) (by omega)) 6 le_rfl _ j]
  rw [zero_add, Finset.sum_range_succ _ 7]

/-- A tile's row-sum, read off the argument array: for the run and block entry that output index `i` reads,
    the `s`-th tile contributes rows `256·s … 256·s + 255` of `i`'s column. -/
theorem tileSum_eq (i : S16x512.Idx) (s : Fin 8) :
    tileSum m c (8 * Value.run1Of i + s.val) (Value.loc1Of i)
      = (∑ r : Fin 256, m ((c : Thread nD τ).loc main_arg0)
          (rowAt i ⟨256 * s.val + r.val, by have := s.isLt; have := r.isLt; omega⟩) : EReal) := by
  have hi0 : (i 0).val < 16 := (i 0).isLt
  have hi1 : (i 1).val < 512 := (i 1).isLt
  have hs : s.val < 8 := s.isLt
  have hr : Value.run1Of i = (i 0).val / 8 := by
    show 1 * ((i 0).val / 8 - 0) + 1 * ((i 1).val / 512 - 0) = _
    omega
  have hN : cfg0.N = 16 := N_0
  have hn : 8 * Value.run1Of i + s.val < cfg0.N := by rw [hr, hN]; omega
  unfold tileSum
  rw [dif_pos hn]
  refine Finset.sum_congr rfl fun r _ => ?_
  have hr' : r.val < 256 := r.isLt
  refine tile_apply m c ⟨8 * Value.run1Of i + s.val, hn⟩ _ _ ?_ ?_ ?_
  · show (i 0).val = 8 * ((8 * Value.run1Of i + s.val) / 8) + (i 0).val % 8
    rw [hr]; omega
  · show 256 * s.val + r.val = 256 * ((8 * Value.run1Of i + s.val) % 8) + r.val
    rw [hr]; omega
  · show (i 1).val = (i 1).val % 512
    omega

end Run

/-! ## Eight tiles of 256 rows are the 2048 rows -/

/-- A sum over 2048 rows, taken tile by tile. -/
theorem sum_tiles {β : Type*} [AddCommMonoid β] (f : Fin 2048 → β) :
    ∑ s : Fin 8, ∑ r : Fin 256, f ⟨256 * s.val + r.val, by have := s.isLt; have := r.isLt; omega⟩
      = ∑ t : Fin 2048, f t := by
  rw [← Fintype.sum_prod_type']
  rw [← Equiv.sum_comp (finProdFinEquiv : Fin 8 × Fin 256 ≃ Fin 2048) f]
  refine Finset.sum_congr rfl fun x _ => congrArg f (Fin.ext ?_)
  show 256 * x.1.val + x.2.val = x.2.val + 256 * x.1.val
  omega

/-- The output at (b, h): the sum over all 2048 rows `t` of the argument array's entries (b, t, h), times the constant. -/
theorem G1_apply (m : (ℓ : Loc nD τ sig) → Buf (Elt Ideal) ℓ) (c : Dev nD) (i : S16x512.Idx) :
    Cert.KernelIdeal.Value.G1 (F := Ideal) m c i
      = (∑ t : Fin 2048, m ((c : Thread nD τ).loc main_arg0) (rowAt i t) : EReal) * Ideal.ofBits .f32 0x3A000000#32 := by
  have hi0 : (i 0).val < 16 := (i 0).isLt
  have hi1 : (i 1).val < 512 := (i 1).isLt
  have hr : Value.run1Of i = (i 0).val / 8 := by
    show 1 * ((i 0).val / 8 - 0) + 1 * ((i 1).val / 512 - 0) = _
    omega
  have hN : cfg0.N = 16 := N_0
  have hrun : 8 * Value.run1Of i + 7 < cfg0.N := by rw [hr, hN]; omega
  unfold Value.G1
  rw [dif_pos hrun, fold_apply m c (8 * Value.run1Of i) (by omega) hrun (Value.loc1Of i)]
  rw [Finset.sum_range fun s => tileSum m c (8 * Value.run1Of i + s) (Value.loc1Of i)]
  rw [Finset.sum_congr rfl fun s _ => tileSum_eq m c i s]
  rw [sum_tiles (β := EReal) fun t => m ((c : Thread nD τ).loc main_arg0) (rowAt i t)]

end Cert.KernelIdeal.TileSum

end
-- ==== Proof.lean ====
/-
  A mean over the middle axis against self-attention whose softmax runs over the query axis.

  The kernel computes, for x of shape [16, 2048, 512], out(b, h) = (Σ_t x(b, t, h)) · 2^(-11): the 2048 rows are
  summed in eight tiles of 256 into a block that starts at zero, and the block is scaled at the last tile.

  The reference computes scores s(b, q, k) = scale · Σ_h x(b, q, h) · x(b, k, h), weights
  w(b, q, k) = exp(s(b, q, k) − max_q' s(b, q', k)) / Σ_q' exp(s(b, q', k) − max_q'' s(b, q'', k)) — a softmax over
  the QUERY axis q, so every column (b, ·, k) of w sums to one —, the context Σ_k w(b, q, k) · x(b, k, h), and its
  mean over q: (Σ_q Σ_k w(b, q, k) · x(b, k, h)) / 2048.

  For real x the two agree: exchanging the sums, Σ_q Σ_k w(b, q, k) · x(b, k, h) = Σ_k x(b, k, h) · Σ_q w(b, q, k)
  = Σ_k x(b, k, h) (Proof/LibColumnWeights.lean), and dividing by 2048 is multiplying by 2^(-11). Moving x(b, k, h) out
  of the sum over q is distributivity, which fails at the infinities of the extended reals, so the precondition —
  every entry of x finite — is used (Proof/FiniteEntries.lean). The reference read at an index is
  Proof/RefStages.lean, the kernel's output array read at an index Proof/TileSum.lean.
-/
import proofs.«135067_j39204461478201_1_alg».proof.Defs
import proofs.«135067_j39204461478201_1_alg».proof.Proof.Gen.Kernel.Frame
import proofs.«135067_j39204461478201_1_alg».proof.Proof.Gen.KernelIdeal.Value
import proofs.«135067_j39204461478201_1_alg».proof.Proof.Gen.Pre_finite_inputs
import proofs.«135067_j39204461478201_1_alg».proof.Proof.Gen.ReferenceIdeal.Run
import proofs.«135067_j39204461478201_1_alg».proof.Proof.Gen.ReferenceIdeal.Read
import proofs.«135067_j39204461478201_1_alg».proof.Proof.Words
import proofs.«135067_j39204461478201_1_alg».proof.Proof.FiniteEntries
import proofs.«135067_j39204461478201_1_alg».proof.Proof.RefStages
import proofs.«135067_j39204461478201_1_alg».proof.Proof.TileSum
import Idealize.ShloMosaic.Adequacy
import Idealize.ShloMosaic.Init

noncomputable section

namespace Cert.Proof

open Idealize.ShloMosaic Idealize.SL.Sem

theorem frame_KernelIdeal : frame_KernelIdeal := fun m ρ _ =>
  (θ_run Cert.KernelIdeal.defs _ _).mono (fun _ h c => (h c).2) (Cert.KernelIdeal.Value.run (F := Ideal) m ρ)

theorem frame_ReferenceIdeal : frame_ReferenceIdeal := fun m ρ _ =>
  (θ_run Cert.ReferenceIdeal.defs _ _).mono (fun _ h c => (h c).2) (Cert.ReferenceIdeal.Value.run (F := Ideal) m ρ)

/-- Both runs end with the array whose entry (b, h) is (Σ_t x(b, t, h)) · 2^(-11): the kernel's by its tiles, the
    reference's by the law of weights normalised by column, for the real entries the precondition gives. -/
theorem algebraic_KernelIdeal_ReferenceIdeal : algebraic_KernelIdeal_ReferenceIdeal := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  refine (Cert.ReferenceIdeal.Read.val_main_v17_eq _).trans ?_
  funext i
  have hreal := Cert.FiniteEntries.entries_real _ (hpre c)
  refine (Cert.ReferenceIdeal.Stages.result_apply _ hreal i).trans ?_
  refine ((Cert.KernelIdeal.TileSum.G1_apply m c i).trans ?_).symm
  rw [Cert.Words.ofBits_inv_2048]
  rfl

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
